-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x8192 : Shape := ⟨3, ![64, 1, 8192]⟩
abbrev S8192x8192 : Shape := ⟨2, ![8192, 8192]⟩
abbrev S8192 : Shape := ⟨1, ![8192]⟩
abbrev S64x8192 : Shape := ⟨2, ![64, 8192]⟩
abbrev S8192x64 : Shape := ⟨2, ![8192, 64]⟩
abbrev S_ : Shape := ⟨0, ![]⟩

class Facts : Prop where
  bcast_S_S64x1x8192 : S_.BroadcastsInDim S64x1x8192 (![] : Fin 0 → Fin S64x1x8192.rank)
  reducesTo_S64x1x8192_S_d0_1_2 : S64x1x8192.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S64x8192 : S_.BroadcastsInDim S64x8192 (![] : Fin 0 → Fin S64x8192.rank)
  reducesTo_S64x8192_S_d0_1 : S64x8192.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg5 : FVec F S8192 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S64x1x8192 .f32) (main_arg1 : IVec S8192x8192 32) (main_arg2 : FVec F S8192 .f32) (main_arg3 : FVec F S64x8192 .f32) (main_arg4 : FVec F S8192x64 .f32) (main_arg5 : FVec F S8192 .f32) : IVec S_ 1 :=
  let main_v0 : FVec F S64x1x8192 .f32 := Host.absf main_arg0
  let main_cst : FVec F S_ .f32 := constant S_ .f32 0x7F800000#32
  let main_v1 : FVec F S64x1x8192 .f32 := broadcastInDim S64x1x8192 ![] bcast_S_S64x1x8192 main_cst
  let main_v2 : IVec S64x1x8192 1 := cmpf .olt main_v0 main_v1
  let main_c : IVec S_ 1 := constantI S_ 1 1#1
  let main_v3 : IVec S_ 1 := (fun x v => Host.reduce IntOp.andi x v reducesTo_S64x1x8192_S_d0_1_2 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S64x8192 .f32 := Host.absf main_arg3
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S8192x64 .f32 := Host.absf main_arg4
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg5 main_v13 main_v16
-- ==== Kernel.lean ====
abbrev S64x1x8192 : Shape := ⟨3, ![64, 1, 8192]⟩
abbrev S8192x8192 : Shape := ⟨2, ![8192, 8192]⟩
abbrev S8192 : Shape := ⟨1, ![8192]⟩
abbrev S64x8192 : Shape := ⟨2, ![64, 8192]⟩
abbrev S8192x64 : Shape := ⟨2, ![8192, 64]⟩
abbrev S8192x1 : Shape := ⟨2, ![8192, 1]⟩
abbrev S1x8192 : Shape := ⟨2, ![1, 8192]⟩
abbrev S64x2048 : Shape := ⟨2, ![64, 2048]⟩
abbrev S1024x2048 : Shape := ⟨2, ![1024, 2048]⟩
abbrev S1024x1 : Shape := ⟨2, ![1024, 1]⟩
abbrev S1024x64 : Shape := ⟨2, ![1024, 64]⟩
abbrev S1x1024 : Shape := ⟨2, ![1, 1024]⟩
abbrev S64x1024 : Shape := ⟨2, ![64, 1024]⟩
abbrev S64x64 : Shape := ⟨2, ![64, 64]⟩

abbrev nBuf : Space → Nat
  | .hbm => 11
  | .vmem => 16
  | .smem => 0
  | _ => 0

abbrev bufTy : (tb : Table) → Fin (tcTables nBuf tb) → BufTy
  | .hbm, ⟨0, _⟩ => ⟨S64x1x8192, .f32⟩
  | .hbm, ⟨1, _⟩ => ⟨S8192x8192, .i32⟩
  | .hbm, ⟨2, _⟩ => ⟨S8192, .f32⟩
  | .hbm, ⟨3, _⟩ => ⟨S64x8192, .f32⟩
  | .hbm, ⟨4, _⟩ => ⟨S8192x64, .f32⟩
  | .hbm, ⟨5, _⟩ => ⟨S8192, .f32⟩
  | .hbm, ⟨6, _⟩ => ⟨S64x8192, .f32⟩
  | .hbm, ⟨7, _⟩ => ⟨S8192x1, .f32⟩
  | .hbm, ⟨8, _⟩ => ⟨S1x8192, .f32⟩
  | .hbm, ⟨9, _⟩ => ⟨S64x8192, .f32⟩
  | .hbm, ⟨10, _⟩ => ⟨S64x1x8192, .f32⟩
  | .local _ .vmem, ⟨0, _⟩ => ⟨S64x2048, .f32⟩
  | .local _ .vmem, ⟨1, _⟩ => ⟨S64x2048, .f32⟩
  | .local _ .vmem, ⟨2, _⟩ => ⟨S1024x2048, .i32⟩
  | .local _ .vmem, ⟨3, _⟩ => ⟨S1024x2048, .i32⟩
  | .local _ .vmem, ⟨4, _⟩ => ⟨S1024x1, .f32⟩
  | .local _ .vmem, ⟨5, _⟩ => ⟨S1024x1, .f32⟩
  | .local _ .vmem, ⟨6, _⟩ => ⟨S64x2048, .f32⟩
  | .local _ .vmem, ⟨7, _⟩ => ⟨S64x2048, .f32⟩
  | .local _ .vmem, ⟨8, _⟩ => ⟨S1024x64, .f32⟩
  | .local _ .vmem, ⟨9, _⟩ => ⟨S1024x64, .f32⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x64, .f32⟩
  | _, _ => ⟨S64x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64x1x8192_S64x8192 : S64x1x8192.ShapeCasts S64x8192
  shapeCasts_S8192_S8192x1 : S8192.ShapeCasts S8192x1
  shapeCasts_S8192_S1x8192 : S8192.ShapeCasts S1x8192
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  shapeCasts_S64x8192_S64x1x8192 : S64x8192.ShapeCasts S64x1x8192
  dot_S64x2048_S1024x2048_S64x1024_1_1_0_0_n_n_wf : DotDims.WF S64x2048 S1024x2048 S64x1024 [1] [1] [0] [0] [] []
  dot_S64x2048_S64x2048_S64x64_1_1_0_0_n_n_wf : DotDims.WF S64x2048 S64x2048 S64x64 [1] [1] [0] [0] [] []
  dot_S64x64_S1024x64_S64x1024_1_1_0_0_n_n_wf : DotDims.WF S64x64 S1024x64 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .i32 = 32 ∨ (Rect.block (s := S8192x8192) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x8192.size a
  hwx0_6 : ∀ i : grid0.Coords, EltTy.bits .f32 = 32 ∨ (Rect.block (s := S64x8192) S64x1024.size (cc0_transform_6 i) (hinb0_6 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S64x2048_S64x2048_S64x64_1_1_0_0_n_n : DotDims S64x2048 S64x2048 S64x64 where
  lhsContracting := [1]
  rhsContracting := [1]
  lhsNonContracting := [0]
  rhsNonContracting := [0]
  lhsBatch := []
  rhsBatch := []
  wf := dot_S64x2048_S64x2048_S64x64_1_1_0_0_n_n_wf
def dot_S64x64_S1024x64_S64x1024_1_1_0_0_n_n : DotDims S64x64 S1024x64 S64x1024 where
  lhsContracting := [1]
  rhsContracting := [1]
  lhsNonContracting := [0]
  rhsNonContracting := [0]
  lhsBatch := []
  rhsBatch := []
  wf := dot_S64x64_S1024x64_S64x1024_1_1_0_0_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x1x8192 : Shape := ⟨3, ![64, 1, 8192]⟩
abbrev S8192x8192 : Shape := ⟨2, ![8192, 8192]⟩
abbrev S8192 : Shape := ⟨1, ![8192]⟩
abbrev S64x8192 : Shape := ⟨2, ![64, 8192]⟩
abbrev S8192x64 : Shape := ⟨2, ![8192, 64]⟩
abbrev S_ : Shape := ⟨0, ![]⟩
abbrev S8192x1 : Shape := ⟨2, ![8192, 1]⟩
abbrev S1x1x8192 : Shape := ⟨3, ![1, 1, 8192]⟩
abbrev S64x1x64 : Shape := ⟨3, ![64, 1, 64]⟩

abbrev nBuf : Space → Nat
  | .hbm => 23
  | .vmem => 0
  | .smem => 0
  | _ => 0

abbrev bufTy : (tb : Table) → Fin (tcTables nBuf tb) → BufTy
  | .hbm, ⟨0, _⟩ => ⟨S64x1x8192, .f32⟩
  | .hbm, ⟨1, _⟩ => ⟨S8192x8192, .i32⟩
  | .hbm, ⟨2, _⟩ => ⟨S8192, .f32⟩
  | .hbm, ⟨3, _⟩ => ⟨S64x8192, .f32⟩
  | .hbm, ⟨4, _⟩ => ⟨S8192x64, .f32⟩
  | .hbm, ⟨5, _⟩ => ⟨S8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S64x1x8192, .f32⟩
  | .hbm, ⟨14, _⟩ => ⟨S1x1x8192, .f32⟩
  | .hbm, ⟨15, _⟩ => ⟨S64x1x8192, .f32⟩
  | .hbm, ⟨16, _⟩ => ⟨S64x1x8192, .f32⟩
  | .hbm, ⟨17, _⟩ => ⟨S64x1x64, .f32⟩
  | .hbm, ⟨18, _⟩ => ⟨S64x1x8192, .f32⟩
  | .hbm, ⟨19, _⟩ => ⟨S_, .f32⟩
  | .hbm, ⟨20, _⟩ => ⟨S64x1x8192, .f32⟩
  | .hbm, ⟨21, _⟩ => ⟨S64x1x8192, .f32⟩
  | .hbm, ⟨22, _⟩ => ⟨S64x1x8192, .f32⟩
  | _, _ => ⟨S64x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x1x8192_2 : S8192.BroadcastsInDim S1x1x8192 (![2] : Fin 1 → Fin S1x1x8192.rank)
  bcast_S1x1x8192_S64x1x8192_0_1_2 : S1x1x8192.BroadcastsInDim S64x1x8192 (![0, 1, 2] : Fin 3 → Fin S64x1x8192.rank)
  bcast_S_S64x1x8192 : S_.BroadcastsInDim S64x1x8192 (![] : Fin 0 → Fin S64x1x8192.rank)
  dot_S64x1x8192_S8192x8192_S64x1x8192_2_1_01_0_n_n_wf : DotDims.WF S64x1x8192 S8192x8192 S64x1x8192 [2] [1] [0, 1] [0] [] []
  dot_S64x1x8192_S64x8192_S64x1x64_2_1_01_0_n_n_wf : DotDims.WF S64x1x8192 S64x8192 S64x1x64 [2] [1] [0, 1] [0] [] []
  dot_S64x1x64_S8192x64_S64x1x8192_2_1_01_0_n_n_wf : DotDims.WF S64x1x64 S8192x64 S64x1x8192 [2] [1] [0, 1] [0] [] []

variable [Facts₀]

def dot_S64x1x8192_S8192x8192_S64x1x8192_2_1_01_0_n_n : DotDims S64x1x8192 S8192x8192 S64x1x8192 where
  lhsContracting := [2]
  rhsContracting := [1]
  lhsNonContracting := [0, 1]
  rhsNonContracting := [0]
  lhsBatch := []
  rhsBatch := []
  wf := dot_S64x1x8192_S8192x8192_S64x1x8192_2_1_01_0_n_n_wf
def dot_S64x1x8192_S64x8192_S64x1x64_2_1_01_0_n_n : DotDims S64x1x8192 S64x8192 S64x1x64 where
  lhsContracting := [2]
  rhsContracting := [1]
  lhsNonContracting := [0, 1]
  rhsNonContracting := [0]
  lhsBatch := []
  rhsBatch := []
  wf := dot_S64x1x8192_S64x8192_S64x1x64_2_1_01_0_n_n_wf
def dot_S64x1x64_S8192x64_S64x1x8192_2_1_01_0_n_n : DotDims S64x1x64 S8192x64 S64x1x8192 where
  lhsContracting := [2]
  rhsContracting := [1]
  lhsNonContracting := [0, 1]
  rhsNonContracting := [0]
  lhsBatch := []
  rhsBatch := []
  wf := dot_S64x1x64_S8192x64_S64x1x8192_2_1_01_0_n_n_wf

class Facts : Prop extends Facts₀ where

variable [Facts]
-- ==== Proof.Pieces.lean ====
import proofs.«161912_j3006477107229_1_alg».proof.Proof.Gen.KernelIdeal.Frame
import Idealize.ShloMosaic.Lib.Pipeline.Value
import Idealize.ShloMosaic.Lib.Tactic

/-!
What one run of the kernel body leaves in its two accumulators and in the output block, as values.

The body takes one of three paths. On the first reduction step it stores zeros into both accumulators and then
adds the step's two products to what it reads back; on a middle step it adds them to what the previous step left;
on the last step it does the same and then writes the output block from the two accumulators it has just
updated. Each buffer is written by whole-buffer stores, so what it ends with is its last store's value, whose
loads read whole buffers: the value is the step's arithmetic applied to the blocks and the previous contents.
-/

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- First step: the base accumulator ends at the step's product added to the zeros just stored. -/
theorem base_first (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : cond0_0 i) (hc1 : ¬cond0_1 i) (x0 : Vec F S64x2048 .f32) (x1 : Vec F S1024x2048 .i32) (x2 : Vec F S1024x1 .f32) (x3 : Vec F S64x2048 .f32) (x4 : Vec F S1024x64 .f32) (x5 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 = k0_pay5 x0 x1 x2 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S64x1024) hz, View.readCov_unit_zero (S := S64x1024) _ hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- First step: the low-rank accumulator ends at the step's product added to the zeros just stored. -/
theorem mid_first (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : cond0_0 i) (hc1 : ¬cond0_1 i) (x0 : Vec F S64x2048 .f32) (x1 : Vec F S1024x2048 .i32) (x2 : Vec F S1024x1 .f32) (x3 : Vec F S64x2048 .f32) (x4 : Vec F S1024x64 .f32) (x5 : Vec F S1x1024 .f32) :
    sout0_A_1 c i arg2 harg2 arg3 harg3 arg4 harg4 arg5 harg5 arg6 harg6 arg7 harg7 arg8 harg8 arg9 harg9 arg10 harg10 hc0 hc1 x0 x1 x2 x3 x4 x5 = k0_pay6 x0 x3 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S64x64) hz, View.readCov_unit_zero (S := S64x64) _ hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- Middle step: the base accumulator ends at the step's product added to what it held. -/
theorem base_middle (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : ¬cond0_0 i) (hc1 : ¬cond0_1 i) (x0 : Vec F S64x2048 .f32) (x1 : Vec F S1024x2048 .i32) (x2 : Vec F S1024x1 .f32) (x3 : Vec F S64x2048 .f32) (x4 : Vec F S1024x64 .f32) (x5 : Vec F S1x1024 .f32) (xs0 : Vec F S64x1024 .f32) (xs1 : Vec F S64x64 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay5 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- Middle step: the low-rank accumulator ends at the step's product added to what it held. -/
theorem mid_middle (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : ¬cond0_0 i) (hc1 : ¬cond0_1 i) (x0 : Vec F S64x2048 .f32) (x1 : Vec F S1024x2048 .i32) (x2 : Vec F S1024x1 .f32) (x3 : Vec F S64x2048 .f32) (x4 : Vec F S1024x64 .f32) (x5 : Vec F S1x1024 .f32) (xs0 : Vec F S64x1024 .f32) (xs1 : Vec F S64x64 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay6 x0 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  rw [View.canon_unit_zero hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- Last step: the base accumulator ends at the step's product added to what it held. -/
theorem base_last (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : ¬cond0_0 i) (hc1 : cond0_1 i) (x0 : Vec F S64x2048 .f32) (x1 : Vec F S1024x2048 .i32) (x2 : Vec F S1024x1 .f32) (x3 : Vec F S64x2048 .f32) (x4 : Vec F S1024x64 .f32) (x5 : Vec F S1x1024 .f32) (xs0 : Vec F S64x1024 .f32) (xs1 : Vec F S64x64 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay5 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- Last step: the low-rank accumulator ends at the step's product added to what it held. -/
theorem mid_last (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : ¬cond0_0 i) (hc1 : cond0_1 i) (x0 : Vec F S64x2048 .f32) (x1 : Vec F S1024x2048 .i32) (x2 : Vec F S1024x1 .f32) (x3 : Vec F S64x2048 .f32) (x4 : Vec F S1024x64 .f32) (x5 : Vec F S1x1024 .f32) (xs0 : Vec F S64x1024 .f32) (xs1 : Vec F S64x64 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay6 x0 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

/-- Last step: the output block is the finishing arithmetic of the two accumulators as this step leaves them. -/
theorem out_last (c : Dev nD) (i : grid0.Coords) (arg2 : Memref sig .tc .vmem S64x2048 .f32) (harg2 : arg2.IsWhole) (arg3 : Memref sig .tc .vmem S1024x2048 .i32) (harg3 : arg3.IsWhole) (arg4 : Memref sig .tc .vmem S1024x1 .f32) (harg4 : arg4.IsWhole) (arg5 : Memref sig .tc .vmem S64x2048 .f32) (harg5 : arg5.IsWhole) (arg6 : Memref sig .tc .vmem S1024x64 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x64 .f32) (harg10 : arg10.IsWhole) (hc0 : ¬cond0_0 i) (hc1 : cond0_1 i) (x0 : Vec F S64x2048 .f32) (x1 : Vec F S1024x2048 .i32) (x2 : Vec F S1024x1 .f32) (x3 : Vec F S64x2048 .f32) (x4 : Vec F S1024x64 .f32) (x5 : Vec F S1x1024 .f32) (xs0 : Vec F S64x1024 .f32) (xs1 : Vec F S64x64 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay1 x4 (k0_pay6 x0 x3 xs1) x5 (k0_pay5 x0 x1 x2 xs0) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz, View.readCov_unit_zero (S := S64x64) _ hz, View.readCov_unit_zero (S := S64x1024) _ hz]
  simp only [View.readAt_eq_ld, harg2.read_unread, harg3.read_unread, harg4.read_unread, harg5.read_unread, harg6.read_unread, harg7.read_unread, harg9.read_unread, harg10.read_unread, View.ld_unit_zero (S := S64x2048) hz, View.ld_unit_zero (S := S1024x2048) hz, View.ld_unit_zero (S := S1024x1) hz, View.ld_unit_zero (S := S1024x64) hz, View.ld_unit_zero (S := S1x1024) hz, View.ld_unit_zero (S := S64x1024) hz, View.ld_unit_zero (S := S64x64) hz]

end Cert.KernelIdeal.Pieces

end
-- ==== Proof.LibTransposedMatmul.lean ====
import Idealize.ShloMosaic.PureOps.Ideal.Laws
import Idealize.ShloMosaic.Lib.ValueIdx

/-!
A matrix product whose right operand is contracted on its LAST axis (rows by contraction, times columns by
contraction: `A · Bᵀ`), accumulated into the zero matrix and read at one entry at the ideal values: the sum over
the contracted coordinate of the products of the two operands' entries, `∑ c, A (a, c) · B (b, c)`.
-/

noncomputable section

namespace Cert.Proof.LibTransposedMatmul

open Idealize.ShloMosaic Idealize.ShloMosaic.ValueIdx

/-- The `m × k` by `n × k` product (the right operand contracted on its last axis) into the zero accumulator, at
    entry `(a, b)`, is `∑ c, A (a, c) * B (b, c)`. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact hc
  rw [hl, hr]

end Cert.Proof.LibTransposedMatmul

end
-- ==== Proof.LibColumnAndUnitAxis.lean ====
import Idealize.ShloMosaic.Lib.ValueIdx
import Idealize.ShloMosaic.Lib.Pipeline.Value

/-!
Four layout operations read at an index given by coordinates.

A column `[a, 1]` broadcast to `[a, b]` reads, at `(p, c)`, the column's entry `(p, 0)`. A rank-3 array with a
middle axis of extent one, `[a, 1, b]`, seen as the matrix `[a, b]` reads, at `(p, c)`, the entry `(p, 0, c)`; and the
matrix seen as `[a, 1, b]` reads, at `(p, 0, c)`, the entry `(p, c)`: a reshape keeps the row-major position, and the
unit axis contributes nothing to it. A vector `[a]` seen as the column `[a, 1]` reads, at `(p, 0)`, its entry `p`.
-/

noncomputable section

namespace Cert.Proof.LibColumnAndUnitAxis

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array seen as the matrix `[a, b]` reads, at `(p, c)`, the entry `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, b]` matrix seen as `[a, 1, b]` reads, at `(p, 0, c)`, the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) :=
  shapeCast_apply x h _ _ (by
    rw [Shape.rowMajor_val_three, Shape.rowMajor_val_two]
    show p.val * b + c.val = (p.val * 1 + 0) * b + c.val
    rw [Nat.mul_one, Nat.add_zero])

/-- An `[a]` vector seen as the column `[a, 1]` reads, at `(p, u)`, the entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Proof.LibColumnAndUnitAxis

end
-- ==== Proof.LibFinBlocks.lean ====
import Mathlib.Algebra.BigOperators.Fin
import Mathlib.Algebra.BigOperators.Group.Finset.Basic
import Mathlib.Logic.Equiv.Fin.Basic

/-!
A sum over `T · B` consecutive indices taken block by block: the sum over the `T` blocks of the sums over the `B`
indices of each block, index `B · t + r` being entry `r` of block `t`. Stated in any additive commutative monoid,
so it holds on the extended reals (where only commutativity and associativity of the sum are used).
-/

namespace Cert.Proof.LibFinBlocks

variable {M : Type*} [AddCommMonoid M]

/-- Entry `r` of block `t`, as an index below `T · B`. -/
def blockIx {T B : ℕ} (t : Fin T) (r : Fin B) : Fin (T * B) :=
  ⟨B * t.val + r.val, by
    have ht := t.isLt; have hr := r.isLt
    calc B * t.val + r.val < B * t.val + B := by omega
      _ = B * (t.val + 1) := (Nat.mul_succ B t.val).symm
      _ ≤ B * T := Nat.mul_le_mul_left B (Nat.succ_le_of_lt ht)
      _ = T * B := Nat.mul_comm B T⟩

theorem blockIx_val {T B : ℕ} (t : Fin T) (r : Fin B) : (blockIx t r).val = B * t.val + r.val := rfl

/-- A sum over `T · B` indices is the sum over the blocks of the sums inside each block. -/
theorem sum_blocks {T B : ℕ} (g : Fin (T * B) → M) :
    ∑ i, g i = ∑ t : Fin T, ∑ r : Fin B, g (blockIx t r) := by
  rw [← Equiv.sum_comp finProdFinEquiv g, Fintype.sum_prod_type]
  refine Finset.sum_congr rfl fun t _ => Finset.sum_congr rfl fun r _ => congrArg g (Fin.ext ?_)
  show r.val + B * t.val = B * t.val + r.val
  omega

end Cert.Proof.LibFinBlocks
-- ==== Proof.Spec.lean ====
import Idealize.ShloMosaic.PureOps.Ideal
import Idealize.ShloMosaic.PureOps.Ideal.Laws
import Idealize.ShloMosaic.Lib.ValueIdx
import proofs.«161912_j3006477107229_1_alg».proof.Proof.LibFinBlocks

/-!
The function both programs compute, over the extended reals.

With `x` the activations `[64, 1, 8192]`, `w` the integer weights `[8192, 8192]`, `s` the per-row scales, `a` and `B`
the two low-rank factors `[64, 8192]` and `[8192, 64]`, and `β` the biases, the result at batch row `b` and output
channel `q` is

  `(∑ i, x (b, i) · ((w (q, i) − 128) · s q) + β q) + ¼ · ∑ r, (∑ i, x (b, i) · a (r, i)) · B (q, r)`.

One program forms each sum over the 8192 input channels in one pass. The other forms it in four passes over
blocks of 2048 consecutive channels, starting from zero: `(((0 + S₀) + S₁) + S₂) + S₃`. On the extended reals
addition is commutative and associative and `0` is neutral, so the two are the same number; no finiteness of the
terms is needed for that.
-/

noncomputable section

namespace Cert.Proof.Spec

open Idealize.ShloMosaic Idealize.ShloMosaic.ValueIdx Cert.Proof.LibFinBlocks

/-- The dequantised weight the base product multiplies by: `(w − 128) · s`, the row's scale. -/
abbrev deq (w : BitVec 32) (s : EReal) : EReal :=
  (FloatOps.sitofp (F := Ideal) .f32 w - Ideal.ofBits .f32 0x43000000#32) * s

/-- Input channel `j` of reduction block `k`. -/
def col (k : Fin 4) (j : Fin 2048) : Fin 8192 := ⟨2048 * k.val + j.val, by have := k.isLt; have := j.isLt; omega⟩

/-- Output channel `p` of tile `o`. -/
def row (o : Fin 8) (p : Fin 1024) : Fin 8192 := ⟨1024 * o.val + p.val, by have := o.isLt; have := p.isLt; omega⟩

/-- The base product's term at input channel `i`. -/
def baseTerm (x : (⟨3, ![64, 1, 8192]⟩ : Shape).Idx → EReal) (w : (⟨2, ![8192, 8192]⟩ : Shape).Idx → BitVec 32)
    (s : (⟨1, ![8192]⟩ : Shape).Idx → EReal) (b : Fin 64) (q : Fin 8192) (i : Fin 8192) : EReal :=
  x (ix3 b (0 : Fin 1) i) * deq (w (ix2 q i)) (s (ix1 q))

/-- The low-rank projection's term at input channel `i`. -/
def midTerm (x : (⟨3, ![64, 1, 8192]⟩ : Shape).Idx → EReal) (a : (⟨2, ![64, 8192]⟩ : Shape).Idx → EReal)
    (b : Fin 64) (r : Fin 64) (i : Fin 8192) : EReal :=
  x (ix3 b (0 : Fin 1) i) * a (ix2 r i)

/-- A sum over the input channels taken in four passes over blocks of 2048, from zero. -/
def fourPasses (g : Fin 8192 → EReal) : EReal :=
  (((0 + ∑ j : Fin 2048, g (col 0 j)) + ∑ j : Fin 2048, g (col 1 j)) + ∑ j : Fin 2048, g (col 2 j))
    + ∑ j : Fin 2048, g (col 3 j)

/-- Four passes from zero give the sum over all input channels. -/
theorem fourPasses_eq_sum (g : Fin 8192 → EReal) : fourPasses g = ∑ i : Fin 8192, g i := by
  have h := sum_blocks (T := 4) (B := 2048) (M := EReal) g
  rw [h, Fin.sum_univ_four]
  unfold fourPasses
  rw [zero_add]
  rfl

/-- The result at batch row `b`, output channel `q`. -/
def result (x : (⟨3, ![64, 1, 8192]⟩ : Shape).Idx → EReal) (w : (⟨2, ![8192, 8192]⟩ : Shape).Idx → BitVec 32)
    (s : (⟨1, ![8192]⟩ : Shape).Idx → EReal) (a : (⟨2, ![64, 8192]⟩ : Shape).Idx → EReal)
    (B : (⟨2, ![8192, 64]⟩ : Shape).Idx → EReal) (β : (⟨1, ![8192]⟩ : Shape).Idx → EReal) (b : Fin 64) (q : Fin 8192) : EReal :=
  (∑ i : Fin 8192, baseTerm x w s b q i + β (ix1 q))
    + Ideal.ofBits .f32 0x3E800000#32 * ∑ r : Fin 64, (∑ i : Fin 8192, midTerm x a b r i) * B (ix2 q r)

/-- The same with every sum over the input channels taken in four passes. -/
theorem result_of_passes (x : (⟨3, ![64, 1, 8192]⟩ : Shape).Idx → EReal) (w : (⟨2, ![8192, 8192]⟩ : Shape).Idx → BitVec 32)
    (s : (⟨1, ![8192]⟩ : Shape).Idx → EReal) (a : (⟨2, ![64, 8192]⟩ : Shape).Idx → EReal)
    (B : (⟨2, ![8192, 64]⟩ : Shape).Idx → EReal) (β : (⟨1, ![8192]⟩ : Shape).Idx → EReal) (b : Fin 64) (q : Fin 8192) :
    (fourPasses (baseTerm x w s b q) + β (ix1 q))
      + Ideal.ofBits .f32 0x3E800000#32 * ∑ r : Fin 64, fourPasses (midTerm x a b r) * B (ix2 q r)
      = result x w s a B β b q := by
  unfold result
  rw [fourPasses_eq_sum]
  refine congrArg _ (congrArg _ (Finset.sum_congr rfl fun r _ => ?_))
  rw [fourPasses_eq_sum]

end Cert.Proof.Spec

end
-- ==== Proof.Payloads.lean ====
import proofs.«161912_j3006477107229_1_alg».proof.Proof.Gen.KernelIdeal.Skeleton
import proofs.«161912_j3006477107229_1_alg».proof.Proof.LibTransposedMatmul
import proofs.«161912_j3006477107229_1_alg».proof.Proof.LibColumnAndUnitAxis
import proofs.«161912_j3006477107229_1_alg».proof.Proof.Spec
import Idealize.ShloMosaic.Lib.ValueLayout
import Idealize.ShloMosaic.Lib.Pipeline.Value

/-!
What one grid step computes, entry by entry, at the ideal values (every change of float format the identity).

With `x` a 64×2048 block of activations, `w` a 1024×2048 block of integer weights, `s` the 1024 scales of the
block's rows, `a` a 64×2048 block of the first low-rank factor, `B` the 1024×64 block of the second one and `β`
the 1024 biases of the block's columns:

* the base accumulator gains, at `(b, p)`, `∑ j, x (b, j) · ((w (p, j) − 128) · s p)`;
* the low-rank accumulator gains, at `(b, r)`, `∑ j, x (b, j) · a (r, j)`;
* the finishing step leaves, at `(b, p)`, `(acc (b, p) + β p) + ¼ · ∑ r, mid (b, r) · B (p, r)`;
* the two resets store zeros.
-/

noncomputable section

namespace Cert.KernelIdeal.Payloads

open Cert.KernelIdeal Cert.KernelIdeal.Gen Idealize.ShloMosaic Idealize.ShloMosaic.ValueIdx
open Cert.Proof.LibTransposedMatmul Cert.Proof.LibColumnAndUnitAxis Cert.Proof.Spec

/-- The reset of the base accumulator stores zero everywhere. -/
theorem zeroBase_apply (i : S64x1024.Idx) : k0_pay2 (F := Ideal) i = 0 := by
  unfold k0_pay2
  simp only [shapeCast_self]
  exact Ideal.ofBits_zero_f32

/-- The reset of the low-rank accumulator stores zero everywhere. -/
theorem zeroMid_apply (i : S64x64.Idx) : k0_pay3 (F := Ideal) i = 0 := by
  unfold k0_pay3
  simp only [shapeCast_self]
  exact Ideal.ofBits_zero_f32

/-- One step of the base accumulation at entry `(b, p)`. -/
theorem baseStep_apply (x : Vec Ideal S64x2048 .f32) (w : Vec Ideal S1024x2048 .i32) (s : Vec Ideal S1024x1 .f32)
    (acc : Vec Ideal S64x1024 .f32) (b : Fin 64) (p : Fin 1024) :
    k0_pay5 (F := Ideal) x w s acc (ix2 b p)
      = acc (ix2 b p) + ∑ j : Fin 2048, x (ix2 b j) * deq (w (ix2 p j)) (s (ix2 p (0 : Fin 1))) := by
  unfold k0_pay5 k0_pay4
  simp only [shapeCast_self]
  show acc (ix2 b p) + matmul (F := Ideal) (DotDims.transposedRhs 64 2048 1024) none _ _
      (constant (F := Ideal) ⟨2, ![64, 1024]⟩ .f32 0x00000000#32) (ix2 b p) = _
  rw [matmul_transposedRhs_zero_apply]
  refine congrArg _ (Finset.sum_congr rfl fun j _ => ?_)
  show x (ix2 b j) * ((FloatOps.sitofp (F := Ideal) .f32 (w (ix2 p j)) - Ideal.ofBits .f32 0x43000000#32)
      * broadcastTo S1024x2048 s broadcasts_S1024x1_S1024x2048 (ix2 p j)) = _
  rw [broadcastTo_a1_ab_apply]

/-- One step of the low-rank accumulation at entry `(b, r)`. -/
theorem midStep_apply (x : Vec Ideal S64x2048 .f32) (a : Vec Ideal S64x2048 .f32) (acc : Vec Ideal S64x64 .f32)
    (b : Fin 64) (r : Fin 64) :
    k0_pay6 (F := Ideal) x a acc (ix2 b r) = acc (ix2 b r) + ∑ j : Fin 2048, x (ix2 b j) * a (ix2 r j) := by
  unfold k0_pay6 k0_pay4
  simp only [shapeCast_self]
  show acc (ix2 b r) + matmul (F := Ideal) (DotDims.transposedRhs 64 2048 64) none _ _
      (constant (F := Ideal) ⟨2, ![64, 64]⟩ .f32 0x00000000#32) (ix2 b r) = _
  rw [matmul_transposedRhs_zero_apply]
  rfl

/-- The finishing step at entry `(b, p)`. -/
theorem finish_apply (B : Vec Ideal S1024x64 .f32) (mid : Vec Ideal S64x64 .f32) (β : Vec Ideal S1x1024 .f32)
    (acc : Vec Ideal S64x1024 .f32) (b : Fin 64) (p : Fin 1024) :
    k0_pay1 (F := Ideal) B mid β acc (ix2 b p)
      = (acc (ix2 b p) + β (ix2 (0 : Fin 1) p))
        + Ideal.ofBits .f32 0x3E800000#32 * ∑ r : Fin 64, mid (ix2 b r) * B (ix2 p r) := by
  unfold k0_pay1
  simp only [shapeCast_self]
  show (acc (ix2 b p) + broadcastTo S64x1024 β broadcasts_S1x1024_S64x1024 (ix2 b p))
      + Ideal.ofBits .f32 0x3E800000#32 * matmul (F := Ideal) (DotDims.transposedRhs 64 64 1024) none _ _
        (constant (F := Ideal) ⟨2, ![64, 1024]⟩ .f32 0x00000000#32) (ix2 b p) = _
  rw [matmul_transposedRhs_zero_apply, broadcastTo_1b_ab_apply]
  rfl

end Cert.KernelIdeal.Payloads

end
-- ==== Proof.Blocks.lean ====
import proofs.«161912_j3006477107229_1_alg».proof.Proof.Gen.KernelIdeal.Frame.Runs
import proofs.«161912_j3006477107229_1_alg».proof.Proof.LibColumnAndUnitAxis
import Idealize.ShloMosaic.Lib.Pipeline.Value
import Idealize.ShloMosaic.Lib.ValueLayout
import Idealize.ShloMosaic.Lib.StableHlo.Run

/-!
The blocks the grid steps read, as entries of the argument arrays.

The grid has 8 tiles of 1024 output channels, each reduced over 4 blocks of 2048 input channels; step `t` is tile
`t / 4`, reduction block `t % 4`. At that step the activations' and the first low-rank factor's blocks are columns
`2048 · (t % 4) + j`; the weights' block is rows `1024 · (t / 4) + p` and those columns; the scales', the second
low-rank factor's and the biases' blocks are rows (entries) `1024 · (t / 4) + p`. The three arrays the host
reshapes before the launch (activations `[64, 1, 8192] → [64, 8192]`, scales `[8192] → [8192, 1]`, biases
`[8192] → [1, 8192]`) are read back through the reshape.
-/

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Cert.Proof.LibColumnAndUnitAxis

variable {F : FTy → Type} [FloatOps F]
variable (m : (ℓ : Loc nD τ sig) → Buf (Elt F) ℓ)

/-! ## Which block each window reads at a step -/

theorem index_x : ∀ t : Fin cfg0.N, win0_0.index t (0 : Fin 2) = 0 ∧ win0_0.index t (1 : Fin 2) = t.val % 4 :=
  (by decide +kernel : ∀ t : Fin grid0.N, _)
theorem index_w : ∀ t : Fin cfg0.N, win0_1.index t (0 : Fin 2) = t.val / 4 ∧ win0_1.index t (1 : Fin 2) = t.val % 4 :=
  (by decide +kernel : ∀ t : Fin grid0.N, _)
theorem index_s : ∀ t : Fin cfg0.N, win0_2.index t (0 : Fin 2) = t.val / 4 ∧ win0_2.index t (1 : Fin 2) = 0 :=
  (by decide +kernel : ∀ t : Fin grid0.N, _)
theorem index_a : ∀ t : Fin cfg0.N, win0_3.index t (0 : Fin 2) = 0 ∧ win0_3.index t (1 : Fin 2) = t.val % 4 :=
  (by decide +kernel : ∀ t : Fin grid0.N, _)
theorem index_b : ∀ t : Fin cfg0.N, win0_4.index t (0 : Fin 2) = t.val / 4 ∧ win0_4.index t (1 : Fin 2) = 0 :=
  (by decide +kernel : ∀ t : Fin grid0.N, _)
theorem index_bias : ∀ t : Fin cfg0.N, win0_5.index t (0 : Fin 2) = 0 ∧ win0_5.index t (1 : Fin 2) = t.val / 4 :=
  (by decide +kernel : ∀ t : Fin grid0.N, _)
theorem index_out : ∀ t : Fin cfg0.N, win0_6.index t (0 : Fin 2) = 0 ∧ win0_6.index t (1 : Fin 2) = t.val / 4 :=
  (by decide +kernel : ∀ t : Fin grid0.N, _)

/-! ## The three reshaped arrays as the launch finds them -/

theorem entry_x (c : Dev nD) : (V m c main_v0 : S64x8192.Idx → Elt F .f32)
    = shapeCast S64x8192 (m ((c : Thread nD τ).loc main_arg0)) shapeCasts_S64x1x8192_S64x8192 := by
  show StableHlo.after hostOps0 (fun b => m (c, b)) (Proc.devRef .tc main_v0) = _
  after_results
  rfl

theorem entry_s (c : Dev nD) : (V m c main_v1 : S8192x1.Idx → Elt F .f32)
    = shapeCast S8192x1 (m ((c : Thread nD τ).loc main_arg2)) shapeCasts_S8192_S8192x1 := by
  show StableHlo.after hostOps0 (fun b => m (c, b)) (Proc.devRef .tc main_v1) = _
  after_results
  rfl

theorem entry_bias (c : Dev nD) : (V m c main_v2 : S1x8192.Idx → Elt F .f32)
    = shapeCast S1x8192 (m ((c : Thread nD τ).loc main_arg5)) shapeCasts_S8192_S1x8192 := by
  show StableHlo.after hostOps0 (fun b => m (c, b)) (Proc.devRef .tc main_v2) = _
  after_results
  rfl

/-! ## The blocks, entry by entry -/

/-- The activations' block at step `t`: row `b`, column `2048 · (t % 4) + j`. -/
theorem x_apply (c : Dev nD) (t : Fin cfg0.N) (b : Fin 64) (j : Fin 2048) (col : Fin 8192)
    (hcol : col.val = 2048 * (t.val % 4) + j.val) :
    (iblk m c 0 t : Vec F S64x2048 .f32) (ix2 b j) = m ((c : Thread nD τ).loc main_arg0) (ix3 b (0 : Fin 1) col) := by
  unfold iblk
  rw [View.read_apply]
  show V m c main_v0 _ = _
  rw [entry_x m c]
  have e : ((cfg0.win 0).blk t).view.emb (ix2 b j) = (ix2 b col : S64x8192.Idx) := funext fun a => Fin.ext (by
    match a with
    | ⟨0, _⟩ => show win0_0.index t 0 * 64 + 1 * b.val = b.val; rw [(index_x t).1]; omega
    | ⟨1, _⟩ => show win0_0.index t 1 * 2048 + 1 * j.val = col.val; rw [(index_x t).2, hcol]; omega)
  rw [e]
  exact shapeCast_a1b_ab_apply _ _ b col

/-- The weights' block at step `t`: row `1024 · (t / 4) + p`, column `2048 · (t % 4) + j`. -/
theorem w_apply (c : Dev nD) (t : Fin cfg0.N) (p : Fin 1024) (j : Fin 2048) (row col : Fin 8192)
    (hrow : row.val = 1024 * (t.val / 4) + p.val) (hcol : col.val = 2048 * (t.val % 4) + j.val) :
    (iblk m c 1 t : Vec F S1024x2048 .i32) (ix2 p j) = m ((c : Thread nD τ).loc main_arg1) (ix2 row col) := by
  unfold iblk
  rw [View.read_apply]
  show V m c main_arg1 _ = _
  rw [V_main_arg1 m c]
  refine congrArg _ (funext fun a => Fin.ext ?_)
  match a with
  | ⟨0, _⟩ => show win0_1.index t 0 * 1024 + 1 * p.val = row.val; rw [(index_w t).1, hrow]; omega
  | ⟨1, _⟩ => show win0_1.index t 1 * 2048 + 1 * j.val = col.val; rw [(index_w t).2, hcol]; omega

/-- The scales' block at step `t`: entry `1024 · (t / 4) + p`. -/
theorem s_apply (c : Dev nD) (t : Fin cfg0.N) (p : Fin 1024) (row : Fin 8192)
    (hrow : row.val = 1024 * (t.val / 4) + p.val) :
    (iblk m c 2 t : Vec F S1024x1 .f32) (ix2 p (0 : Fin 1)) = m ((c : Thread nD τ).loc main_arg2) (ix1 row) := by
  unfold iblk
  rw [View.read_apply]
  show V m c main_v1 _ = _
  rw [entry_s m c]
  have e : ((cfg0.win 2).blk t).view.emb (ix2 p (0 : Fin 1)) = (ix2 row (0 : Fin 1) : S8192x1.Idx) := funext fun a => Fin.ext (by
    match a with
    | ⟨0, _⟩ => show win0_2.index t 0 * 1024 + 1 * p.val = row.val; rw [(index_s t).1, hrow]; omega
    | ⟨1, _⟩ => show win0_2.index t 1 * 1 + 1 * 0 = 0; rw [(index_s t).2])
  rw [e]
  exact shapeCast_a_a1_apply _ _ row 0

/-- The first low-rank factor's block at step `t`: row `r`, column `2048 · (t % 4) + j`. -/
theorem a_apply (c : Dev nD) (t : Fin cfg0.N) (r : Fin 64) (j : Fin 2048) (col : Fin 8192)
    (hcol : col.val = 2048 * (t.val % 4) + j.val) :
    (iblk m c 3 t : Vec F S64x2048 .f32) (ix2 r j) = m ((c : Thread nD τ).loc main_arg3) (ix2 r col) := by
  unfold iblk
  rw [View.read_apply]
  show V m c main_arg3 _ = _
  rw [V_main_arg3 m c]
  refine congrArg _ (funext fun a => Fin.ext ?_)
  match a with
  | ⟨0, _⟩ => show win0_3.index t 0 * 64 + 1 * r.val = r.val; rw [(index_a t).1]; omega
  | ⟨1, _⟩ => show win0_3.index t 1 * 2048 + 1 * j.val = col.val; rw [(index_a t).2, hcol]; omega

/-- The second low-rank factor's block at step `t`: row `1024 · (t / 4) + p`, column `r`. -/
theorem b_apply (c : Dev nD) (t : Fin cfg0.N) (p : Fin 1024) (r : Fin 64) (row : Fin 8192)
    (hrow : row.val = 1024 * (t.val / 4) + p.val) :
    (iblk m c 4 t : Vec F S1024x64 .f32) (ix2 p r) = m ((c : Thread nD τ).loc main_arg4) (ix2 row r) := by
  unfold iblk
  rw [View.read_apply]
  show V m c main_arg4 _ = _
  rw [V_main_arg4 m c]
  refine congrArg _ (funext fun a => Fin.ext ?_)
  match a with
  | ⟨0, _⟩ => show win0_4.index t 0 * 1024 + 1 * p.val = row.val; rw [(index_b t).1, hrow]; omega
  | ⟨1, _⟩ => show win0_4.index t 1 * 64 + 1 * r.val = r.val; rw [(index_b t).2]; omega

/-- The biases' block at step `t`: entry `1024 · (t / 4) + p`. -/
theorem bias_apply (c : Dev nD) (t : Fin cfg0.N) (p : Fin 1024) (row : Fin 8192)
    (hrow : row.val = 1024 * (t.val / 4) + p.val) :
    (iblk m c 5 t : Vec F S1x1024 .f32) (ix2 (0 : Fin 1) p) = m ((c : Thread nD τ).loc main_arg5) (ix1 row) := by
  unfold iblk
  rw [View.read_apply]
  show V m c main_v2 _ = _
  rw [entry_bias m c]
  have e : ((cfg0.win 5).blk t).view.emb (ix2 (0 : Fin 1) p) = (ix2 (0 : Fin 1) row : S1x8192.Idx) := funext fun a => Fin.ext (by
    match a with
    | ⟨0, _⟩ => show win0_5.index t 0 * 1 + 1 * 0 = 0; rw [(index_bias t).1]
    | ⟨1, _⟩ => show win0_5.index t 1 * 1024 + 1 * p.val = row.val; rw [(index_bias t).2, hrow]; omega)
  rw [e]
  exact shapeCast_a_1a_apply _ _ 0 row

end Cert.KernelIdeal.Blocks

end
-- ==== Proof.Accum.lean ====
import proofs.«161912_j3006477107229_1_alg».proof.Proof.Gen.KernelIdeal.Frame
import proofs.«161912_j3006477107229_1_alg».proof.Proof.Pieces
import proofs.«161912_j3006477107229_1_alg».proof.Proof.Payloads
import proofs.«161912_j3006477107229_1_alg».proof.Proof.Blocks
import proofs.«161912_j3006477107229_1_alg».proof.Proof.Spec

/-!
What the two accumulators and the output block hold, step by step and then tile by tile.

Steps `4o, 4o + 1, 4o + 2, 4o + 3` are the four reduction steps of output tile `o`. The first resets both
accumulators and adds the first block's products; each later one adds its block's products to what the step
before left; the last then writes the output block from the two accumulators. So after the last step the base
accumulator holds, at `(b, p)`, the four-pass sum of the base terms of output channel `1024 · o + p`, the low-rank
accumulator the four-pass sum of the projection terms, and the output block the specified result at
`(b, 1024 · o + p)`.
-/

noncomputable section

namespace Cert.KernelIdeal.Accum

open Cert.KernelIdeal Cert.KernelIdeal.Gen Idealize.ShloMosaic Idealize.ShloMosaic.TcCoe Idealize.SL.Sem
open Idealize.ShloMosaic.ValueIdx Cert.Proof

section AnyValues

variable {F : FTy → Type} [FloatOps F]
variable (m : (ℓ : Loc nD τ sig) → Buf (Elt F) ℓ)

/-- The contents after a step depend on the step's number only. -/
theorem outsAt0_congr (c : Dev nD) {n n' : ℕ} (e : n = n') (h : n < cfg0.N) (h' : n' < cfg0.N) :
    outsAt0 m c n h = outsAt0 m c n' h' := by
  subst e; rfl

/-- A tile's first step: both accumulators are the step's products added to zeros. -/
theorem accs_first (c : Dev nD) (t : Fin cfg0.N) (h0 : t.val % 4 = 0) :
    (outsAt0 m c t.val t.isLt).2
      = (k0_pay5 (iblk m c 0 t) (iblk m c 1 t) (iblk m c 2 t) k0_pay2, k0_pay6 (iblk m c 0 t) (iblk m c 3 t) k0_pay3) := by
  have h1 : ¬t.val % 4 = 3 := by omega
  rw [outsAt0_A m c t h0 h1]
  exact congrArg₂ Prod.mk (Pieces.base_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (Pieces.mid_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- A later step: both accumulators are the step's products added to what the step before left. -/
theorem accs_later (c : Dev nD) (t : Fin cfg0.N) (h0 : ¬t.val % 4 = 0) :
    (outsAt0 m c t.val t.isLt).2
      = (k0_pay5 (iblk m c 0 t) (iblk m c 1 t) (iblk m c 2 t) (outsAt0 m c (t.val - 1) (Nat.lt_of_le_of_lt (Nat.sub_le _ _) t.isLt)).2.1,
         k0_pay6 (iblk m c 0 t) (iblk m c 3 t) (outsAt0 m c (t.val - 1) (Nat.lt_of_le_of_lt (Nat.sub_le _ _) t.isLt)).2.2) := by
  by_cases h1 : t.val % 4 = 3
  · rw [outsAt0_C m c t h0 h1]
    exact congrArg₂ Prod.mk (Pieces.base_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)
      (Pieces.mid_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)
  · rw [outsAt0_B m c t h0 h1]
    exact congrArg₂ Prod.mk (Pieces.base_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)
      (Pieces.mid_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)

/-- A tile's last step: the output block is the finishing arithmetic of the two accumulators as that step updates
    them from what the step before left. -/
theorem outs_last (c : Dev nD) (t : Fin cfg0.N) (h0 : ¬t.val % 4 = 0) (h1 : t.val % 4 = 3) :
    outsAt0 m c t.val t.isLt
      = (k0_pay1 (iblk m c 4 t) (k0_pay6 (iblk m c 0 t) (iblk m c 3 t) (outsAt0 m c (t.val - 1) (Nat.lt_of_le_of_lt (Nat.sub_le _ _) t.isLt)).2.2) (iblk m c 5 t)
          (k0_pay5 (iblk m c 0 t) (iblk m c 1 t) (iblk m c 2 t) (outsAt0 m c (t.val - 1) (Nat.lt_of_le_of_lt (Nat.sub_le _ _) t.isLt)).2.1),
         k0_pay5 (iblk m c 0 t) (iblk m c 1 t) (iblk m c 2 t) (outsAt0 m c (t.val - 1) (Nat.lt_of_le_of_lt (Nat.sub_le _ _) t.isLt)).2.1,
         k0_pay6 (iblk m c 0 t) (iblk m c 3 t) (outsAt0 m c (t.val - 1) (Nat.lt_of_le_of_lt (Nat.sub_le _ _) t.isLt)).2.2) := by
  rw [outsAt0_C m c t h0 h1]
  exact congrArg₂ Prod.mk (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk (Pieces.base_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (Pieces.mid_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2))

end AnyValues

/-! ## At the ideal values, entry by entry -/

variable (m : (ℓ : Loc nD τ sig) → Buf (Elt Ideal) ℓ)

/-- The argument arrays on core `c`. -/
abbrev argX (c : Dev nD) : S64x1x8192.Idx → EReal := m ((c : Thread nD τ).loc main_arg0)
abbrev argW (c : Dev nD) : S8192x8192.Idx → BitVec 32 := m ((c : Thread nD τ).loc main_arg1)
abbrev argS (c : Dev nD) : S8192.Idx → EReal := m ((c : Thread nD τ).loc main_arg2)
abbrev argA (c : Dev nD) : S64x8192.Idx → EReal := m ((c : Thread nD τ).loc main_arg3)
abbrev argB (c : Dev nD) : S8192x64.Idx → EReal := m ((c : Thread nD τ).loc main_arg4)
abbrev argBias (c : Dev nD) : S8192.Idx → EReal := m ((c : Thread nD τ).loc main_arg5)

/-- Reduction step `k` of output tile `o`. -/
def pt (o : Fin 8) (k : Fin 4) : Fin cfg0.N :=
  ⟨4 * o.val + k.val, by have := o.isLt; have := k.isLt; rw [show cfg0.N = 32 from N_0]; omega⟩

theorem pt_val (o : Fin 8) (k : Fin 4) : (pt o k).val = 4 * o.val + k.val := rfl

/-- At step `k` of tile `o` the base accumulator gains the base terms of the step's 2048 input channels. -/
theorem base_gain (c : Dev nD) (t : Fin cfg0.N) (o : Fin 8) (k : Fin 4) (ht : t.val = 4 * o.val + k.val)
    (acc : Vec Ideal S64x1024 .f32) (b : Fin 64) (p : Fin 1024) :
    k0_pay5 (F := Ideal) (iblk m c 0 t) (iblk m c 1 t) (iblk m c 2 t) acc (ix2 b p)
      = acc (ix2 b p) + ∑ j : Fin 2048, Spec.baseTerm (argX m c) (argW m c) (argS m c) b (Spec.row o p) (Spec.col k j) := by
  have hk := k.isLt
  have hq : t.val / 4 = o.val := by omega
  have hr : t.val % 4 = k.val := by omega
  refine (Payloads.baseStep_apply (iblk m c 0 t) (iblk m c 1 t) (iblk m c 2 t) acc b p).trans ?_
  refine congrArg _ (Finset.sum_congr rfl fun j _ => ?_)
  rw [Blocks.x_apply m c t b j (Spec.col k j) (by show 2048 * k.val + j.val = _; rw [hr]),
    Blocks.w_apply m c t p j (Spec.row o p) (Spec.col k j) (by show 1024 * o.val + p.val = _; rw [hq])
      (by show 2048 * k.val + j.val = _; rw [hr]),
    Blocks.s_apply m c t p (Spec.row o p) (by show 1024 * o.val + p.val = _; rw [hq])]
  rfl

/-- At step `k` the low-rank accumulator gains the projection terms of the step's 2048 input channels. -/
theorem mid_gain (c : Dev nD) (t : Fin cfg0.N) (o : Fin 8) (k : Fin 4) (ht : t.val = 4 * o.val + k.val)
    (acc : Vec Ideal S64x64 .f32) (b : Fin 64) (r : Fin 64) :
    k0_pay6 (F := Ideal) (iblk m c 0 t) (iblk m c 3 t) acc (ix2 b r)
      = acc (ix2 b r) + ∑ j : Fin 2048, Spec.midTerm (argX m c) (argA m c) b r (Spec.col k j) := by
  have hk := k.isLt
  have hr : t.val % 4 = k.val := by omega
  refine (Payloads.midStep_apply (iblk m c 0 t) (iblk m c 3 t) acc b r).trans ?_
  refine congrArg _ (Finset.sum_congr rfl fun j _ => ?_)
  rw [Blocks.x_apply m c t b j (Spec.col k j) (by show 2048 * k.val + j.val = _; rw [hr]),
    Blocks.a_apply m c t r j (Spec.col k j) (by show 2048 * k.val + j.val = _; rw [hr])]
  rfl

/-- After a tile's first step. -/
theorem base_first (c : Dev nD) (o : Fin 8) (b : Fin 64) (p : Fin 1024) :
    (outsAt0 m c (pt o 0).val (pt o 0).isLt).2.1 (ix2 b p)
      = 0 + ∑ j : Fin 2048, Spec.baseTerm (argX m c) (argW m c) (argS m c) b (Spec.row o p) (Spec.col 0 j) := by
  rw [accs_first m c (pt o 0) (by show (4 * o.val + 0) % 4 = 0; omega)]
  refine (base_gain m c (pt o 0) o 0 rfl _ b p).trans ?_
  rw [Payloads.zeroBase_apply]

theorem mid_first (c : Dev nD) (o : Fin 8) (b : Fin 64) (r : Fin 64) :
    (outsAt0 m c (pt o 0).val (pt o 0).isLt).2.2 (ix2 b r)
      = 0 + ∑ j : Fin 2048, Spec.midTerm (argX m c) (argA m c) b r (Spec.col 0 j) := by
  rw [accs_first m c (pt o 0) (by show (4 * o.val + 0) % 4 = 0; omega)]
  refine (mid_gain m c (pt o 0) o 0 rfl _ b r).trans ?_
  rw [Payloads.zeroMid_apply]

/-- After a later step, from the step before. -/
theorem base_later (c : Dev nD) (o : Fin 8) (k k' : Fin 4) (hk : k.val = k'.val + 1) (b : Fin 64) (p : Fin 1024) :
    (outsAt0 m c (pt o k).val (pt o k).isLt).2.1 (ix2 b p)
      = (outsAt0 m c (pt o k').val (pt o k').isLt).2.1 (ix2 b p)
        + ∑ j : Fin 2048, Spec.baseTerm (argX m c) (argW m c) (argS m c) b (Spec.row o p) (Spec.col k j) := by
  have h0 : ¬(pt o k).val % 4 = 0 := by show ¬(4 * o.val + k.val) % 4 = 0; have := k.isLt; omega
  have e : (pt o k).val - 1 = (pt o k').val := by show 4 * o.val + k.val - 1 = 4 * o.val + k'.val; omega
  rw [accs_later m c (pt o k) h0, outsAt0_congr m c e _ (pt o k').isLt]
  exact base_gain m c (pt o k) o k rfl _ b p

theorem mid_later (c : Dev nD) (o : Fin 8) (k k' : Fin 4) (hk : k.val = k'.val + 1) (b : Fin 64) (r : Fin 64) :
    (outsAt0 m c (pt o k).val (pt o k).isLt).2.2 (ix2 b r)
      = (outsAt0 m c (pt o k').val (pt o k').isLt).2.2 (ix2 b r)
        + ∑ j : Fin 2048, Spec.midTerm (argX m c) (argA m c) b r (Spec.col k j) := by
  have h0 : ¬(pt o k).val % 4 = 0 := by show ¬(4 * o.val + k.val) % 4 = 0; have := k.isLt; omega
  have e : (pt o k).val - 1 = (pt o k').val := by show 4 * o.val + k.val - 1 = 4 * o.val + k'.val; omega
  rw [accs_later m c (pt o k) h0, outsAt0_congr m c e _ (pt o k').isLt]
  exact mid_gain m c (pt o k) o k rfl _ b r

/-- After a tile's last step the base accumulator holds the four-pass sums of the base terms. -/
theorem base_tile (c : Dev nD) (o : Fin 8) (b : Fin 64) (p : Fin 1024) :
    (outsAt0 m c (pt o 3).val (pt o 3).isLt).2.1 (ix2 b p)
      = Spec.fourPasses (Spec.baseTerm (argX m c) (argW m c) (argS m c) b (Spec.row o p)) := by
  rw [base_later m c o 3 2 rfl, base_later m c o 2 1 rfl, base_later m c o 1 0 rfl, base_first]
  rfl

/-- And the low-rank accumulator the four-pass sums of the projection terms. -/
theorem mid_tile (c : Dev nD) (o : Fin 8) (b : Fin 64) (r : Fin 64) :
    (outsAt0 m c (pt o 3).val (pt o 3).isLt).2.2 (ix2 b r)
      = Spec.fourPasses (Spec.midTerm (argX m c) (argA m c) b r) := by
  rw [mid_later m c o 3 2 rfl, mid_later m c o 2 1 rfl, mid_later m c o 1 0 rfl, mid_first]
  rfl

/-- The same two facts, stated of the last step's updates themselves. -/
theorem base_tile_update (c : Dev nD) (o : Fin 8) (b : Fin 64) (p : Fin 1024) :
    k0_pay5 (F := Ideal) (iblk m c 0 (pt o 3)) (iblk m c 1 (pt o 3)) (iblk m c 2 (pt o 3)) (outsAt0 m c ((pt o 3).val - 1) (Nat.lt_of_le_of_lt (Nat.sub_le _ _) (pt o 3).isLt)).2.1 (ix2 b p)
      = Spec.fourPasses (Spec.baseTerm (argX m c) (argW m c) (argS m c) b (Spec.row o p)) := by
  have h := base_tile m c o b p
  rw [accs_later m c (pt o 3) (by show ¬(4 * o.val + 3) % 4 = 0; omega)] at h
  exact h

theorem mid_tile_update (c : Dev nD) (o : Fin 8) (b : Fin 64) (r : Fin 64) :
    k0_pay6 (F := Ideal) (iblk m c 0 (pt o 3)) (iblk m c 3 (pt o 3)) (outsAt0 m c ((pt o 3).val - 1) (Nat.lt_of_le_of_lt (Nat.sub_le _ _) (pt o 3).isLt)).2.2 (ix2 b r)
      = Spec.fourPasses (Spec.midTerm (argX m c) (argA m c) b r) := by
  have h := mid_tile m c o b r
  rw [accs_later m c (pt o 3) (by show ¬(4 * o.val + 3) % 4 = 0; omega)] at h
  exact h

/-- The output block a tile's last step writes is the specified result at the tile's output channels. -/
theorem out_tile (c : Dev nD) (o : Fin 8) (b : Fin 64) (p : Fin 1024) :
    (outsAt0 m c (pt o 3).val (pt o 3).isLt).1 (ix2 b p)
      = Spec.result (argX m c) (argW m c) (argS m c) (argA m c) (argB m c) (argBias m c) b (Spec.row o p) := by
  have h0 : ¬(pt o 3).val % 4 = 0 := by show ¬(4 * o.val + 3) % 4 = 0; omega
  have h1 : (pt o 3).val % 4 = 3 := by show (4 * o.val + 3) % 4 = 3; omega
  have hq : (pt o 3).val / 4 = o.val := by show (4 * o.val + 3) / 4 = o.val; omega
  rw [outs_last m c (pt o 3) h0 h1]
  dsimp only
  refine (Payloads.finish_apply (iblk m c 4 (pt o 3)) _ (iblk m c 5 (pt o 3)) _ b p).trans ?_
  rw [base_tile_update m c o b p, Blocks.bias_apply m c (pt o 3) p (Spec.row o p) (by show 1024 * o.val + p.val = _; rw [hq])]
  refine Eq.trans ?_ (Spec.result_of_passes (argX m c) (argW m c) (argS m c) (argA m c) (argB m c) (argBias m c) b (Spec.row o p))
  refine congrArg _ (congrArg _ (Finset.sum_congr rfl fun r _ => ?_))
  rw [mid_tile_update m c o b r, Blocks.b_apply m c (pt o 3) p r (Spec.row o p) (by show 1024 * o.val + p.val = _; rw [hq])]

end Cert.KernelIdeal.Accum

end
-- ==== Proof.KernelValue.lean ====
import proofs.«161912_j3006477107229_1_alg».proof.Proof.Gen.KernelIdeal.Frame
import proofs.«161912_j3006477107229_1_alg».proof.Proof.Accum
import proofs.«161912_j3006477107229_1_alg».proof.Proof.Blocks
import proofs.«161912_j3006477107229_1_alg».proof.Proof.Spec
import proofs.«161912_j3006477107229_1_alg».proof.Proof.LibColumnAndUnitAxis
import Idealize.ShloMosaic.Lib.Pipeline.Value
import Idealize.ShloMosaic.Lib.StableHlo.Run

/-!
The kernel's result, as one function of the argument arrays.

The launch writes its `[64, 8192]` result one `[64, 1024]` column block per output tile, at the tile's last
reduction step; block `o` is columns `1024 · o … 1024 · o + 1023`, and what is written there is the specified
result at those output channels. The eight blocks tile the array, so after the launch the array holds the
specified result everywhere; the host then views it as `[64, 1, 8192]`, which keeps every entry.
-/

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Proof Cert.KernelIdeal.Accum Cert.Proof.LibColumnAndUnitAxis

variable (m : (ℓ : Loc nD τ sig) → Buf (Elt Ideal) ℓ) (ρ : Dev nD → PrngReg)

/-- What the launch leaves in its `[64, 8192]` result array: the specified result at `(b, q)`. -/
def launchResult (c : Dev nD) : S64x8192.Idx → EReal := fun i =>
  Spec.result (argX m c) (argW m c) (argS m c) (argA m c) (argB m c) (argBias m c) (i 0) (i 1)

/-- The block written back at a tile's last step is that block of the specified result. -/
theorem flushed_eq (c : Dev nD) (t : Fin cfg0.N) (hf : (cfg0.win 6).flush t = true) :
    (dats m 0 c).flushed 6 t = ((cfg0.win 6).blk t).view.read (Elt Ideal) (launchResult m c) := by
  have h3 : t.val % 4 = 3 := (flush0_6 t).mp hf
  have hN : t.val < 32 := lt_of_lt_of_eq t.isLt (show cfg0.N = 32 from N_0)
  obtain ⟨o, rfl⟩ : ∃ o : Fin 8, t = pt o 3 :=
    ⟨⟨t.val / 4, by omega⟩, Fin.ext (by show t.val = 4 * (t.val / 4) + 3; omega)⟩
  show (cfg0.win 6).cut (grid0.coords (pt o 3)) ((dats m 0 c).after 6 (pt o 3)) = _
  rw [after0_6]
  funext j
  obtain ⟨b, p, rfl⟩ : ∃ (b : Fin 64) (p : Fin 1024), j = ix2 b p := ⟨j 0, j 1, eq_ix2 (n0 := 64) (n1 := 1024) j⟩
  show (outsAt0 m c (pt o 3).val (pt o 3).isLt).1 (ix2 b p)
    = launchResult m c (((cfg0.win 6).blk (pt o 3)).view.emb (ix2 b p))
  rw [out_tile m c o b p]
  have e : ((cfg0.win 6).blk (pt o 3)).view.emb (ix2 b p) = (ix2 b (Spec.row o p) : S64x8192.Idx) :=
    funext fun a => Fin.ext (by
      match a with
      | ⟨0, _⟩ => show win0_6.index (pt o 3) 0 * 64 + 1 * b.val = b.val; rw [(Blocks.index_out (pt o 3)).1]; omega
      | ⟨1, _⟩ =>
        show win0_6.index (pt o 3) 1 * 1024 + 1 * p.val = 1024 * o.val + p.val
        rw [(Blocks.index_out (pt o 3)).2]
        show (4 * o.val + 3) / 4 * 1024 + 1 * p.val = 1024 * o.val + p.val
        omega)
  rw [e]
  rfl

/-- Every entry of the result array is in some tile's block: column `q` is in the block of tile `q / 1024`. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 64 := (i 0).isLt
  have h1 : (i 1 : Nat) < 8192 := (i 1).isLt
  have ho : (i 1 : Nat) / 1024 < 8 := by omega
  refine ⟨pt ⟨(i 1 : Nat) / 1024, ho⟩ 3, (flush0_6 _).mpr (by show (4 * ((i 1 : Nat) / 1024) + 3) % 4 = 3; omega), ?_⟩
  show i ∈ ((View.whole main_v3).slice (win0_6.rect (pt ⟨(i 1 : Nat) / 1024, ho⟩ 3))).set
  rw [View.set_slice_whole, Rect.mem_set_unit]
  intro a
  match a with
  | ⟨0, _⟩ =>
    show win0_6.index (pt ⟨(i 1 : Nat) / 1024, ho⟩ 3) 0 * 64 ≤ (i 0 : Nat)
      ∧ (i 0 : Nat) < win0_6.index (pt ⟨(i 1 : Nat) / 1024, ho⟩ 3) 0 * 64 + 64
    rw [(Blocks.index_out _).1]; omega
  | ⟨1, _⟩ =>
    show win0_6.index (pt ⟨(i 1 : Nat) / 1024, ho⟩ 3) 1 * 1024 ≤ (i 1 : Nat)
      ∧ (i 1 : Nat) < win0_6.index (pt ⟨(i 1 : Nat) / 1024, ho⟩ 3) 1 * 1024 + 1024
    rw [(Blocks.index_out _).2]
    show (4 * ((i 1 : Nat) / 1024) + 3) / 4 * 1024 ≤ (i 1 : Nat)
      ∧ (i 1 : Nat) < (4 * ((i 1 : Nat) / 1024) + 3) / 4 * 1024 + 1024
    omega

/-- After the launch the result array holds the specified result everywhere. -/
theorem launch_final (c : Dev nD) : (dats m 0 c).arrAt 6 cfg0.N = launchResult m c :=
  (dats m 0 c).arrAt_eq_of_cover 6 (launchResult m c) (flushed_eq m c) (cover c)

/-- The program's result: the launch's array viewed as `[64, 1, 8192]`. -/
def result (c : Dev nD) : S64x1x8192.Idx → EReal :=
  shapeCast S64x1x8192 (launchResult m c) shapeCasts_S64x8192_S64x1x8192

/-- Entry `(b, 0, q)` of the program's result is the specified result at `(b, q)`. -/
theorem result_apply (c : Dev nD) (b : Fin 64) (q : Fin 8192) :
    result m c (ix3 b (0 : Fin 1) q)
      = Spec.result (argX m c) (argW m c) (argS m c) (argA m c) (argB m c) (argBias m c) b q :=
  shapeCast_ab_a1b_apply (launchResult m c) shapeCasts_S64x8192_S64x1x8192 b q

/-- The host line after the launch leaves the program's result in the result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = launchResult m c :=
    (Pipeline.withArrays_arr spec0 launch0.win.arr_inj c _ _ 6).trans (launch_final m c)
  rw [e]
  rfl

/-- The kernel's program at the ideal values runs, ends with the program's result in its result buffer, and leaves
    its arguments as they were. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KernelValue

end
-- ==== Proof.RefValue.lean ====
import proofs.«161912_j3006477107229_1_alg».proof.Proof.Gen.ReferenceIdeal.Read
import proofs.«161912_j3006477107229_1_alg».proof.Proof.Spec

/-!
The reference's result, entry by entry, is the specified function.

Read one operation at a time, the reference at `(b, 0, q)` is the sum over the input channels of the activations
times the dequantised weights of row `q` (the scale broadcast along the row), plus the bias of channel `q`, plus a
quarter of the low-rank path: the sum over the 64 ranks of the activations' projection on factor row `r` times the
second factor at `(q, r)`. The operand indices its contractions and broadcasts compose are the coordinates
themselves.
-/

noncomputable section

namespace Cert.ReferenceIdeal.RefValue

open Cert.ReferenceIdeal Cert.ReferenceIdeal.Read Idealize.ShloMosaic Idealize.ShloMosaic.ValueIdx Cert.Proof

theorem lhs_base (b : Fin 64) (q k : Fin 8192) : lidx_main_v6 (ix3 b (0 : Fin 1) q) k = ix3 b (0 : Fin 1) k :=
  funext fun a => Fin.ext (by match a with | ⟨0, _⟩ => rfl | ⟨1, _⟩ => rfl | ⟨2, _⟩ => rfl)
theorem rhs_base (b : Fin 64) (q k : Fin 8192) : ridx_main_v6 (ix3 b (0 : Fin 1) q) k = ix2 q k :=
  funext fun a => Fin.ext (by match a with | ⟨0, _⟩ => rfl | ⟨1, _⟩ => rfl)
theorem scale_ix (q k : Fin 8192) : idx_main_v3 (idx_main_v4 (ix2 q k)) = ix1 q :=
  funext fun a => Fin.ext (by match a with | ⟨0, _⟩ => rfl)
theorem bias_ix (b : Fin 64) (q : Fin 8192) : idx_main_v7 (idx_main_v8 (ix3 b (0 : Fin 1) q)) = ix1 q :=
  funext fun a => Fin.ext (by match a with | ⟨0, _⟩ => rfl)
theorem lhs_out (b : Fin 64) (q : Fin 8192) (r : Fin 64) : lidx_main_v11 (ix3 b (0 : Fin 1) q) r = ix3 b (0 : Fin 1) r :=
  funext fun a => Fin.ext (by match a with | ⟨0, _⟩ => rfl | ⟨1, _⟩ => rfl | ⟨2, _⟩ => rfl)
theorem rhs_out (b : Fin 64) (q : Fin 8192) (r : Fin 64) : ridx_main_v11 (ix3 b (0 : Fin 1) q) r = ix2 q r :=
  funext fun a => Fin.ext (by match a with | ⟨0, _⟩ => rfl | ⟨1, _⟩ => rfl)
theorem lhs_mid (b r : Fin 64) (k : Fin 8192) : lidx_main_v10 (ix3 b (0 : Fin 1) r) k = ix3 b (0 : Fin 1) k :=
  funext fun a => Fin.ext (by match a with | ⟨0, _⟩ => rfl | ⟨1, _⟩ => rfl | ⟨2, _⟩ => rfl)
theorem rhs_mid (b r : Fin 64) (k : Fin 8192) : ridx_main_v10 (ix3 b (0 : Fin 1) r) k = ix2 r k :=
  funext fun a => Fin.ext (by match a with | ⟨0, _⟩ => rfl | ⟨1, _⟩ => rfl)

/-- The reference at `(b, 0, q)` is the specified result. -/
theorem ref_apply (x0 : (⟨S64x1x8192, .f32⟩ : BufTy).Contents (Elt Ideal)) (x1 : (⟨S8192x8192, .i32⟩ : BufTy).Contents (Elt Ideal))
    (x2 : (⟨S8192, .f32⟩ : BufTy).Contents (Elt Ideal)) (x3 : (⟨S64x8192, .f32⟩ : BufTy).Contents (Elt Ideal))
    (x4 : (⟨S8192x64, .f32⟩ : BufTy).Contents (Elt Ideal)) (x5 : (⟨S8192, .f32⟩ : BufTy).Contents (Elt Ideal)) (b : Fin 64) (q : Fin 8192) :
    val_main_v14 (F := Ideal) x0 x1 x2 x3 x4 x5 (ix3 b (0 : Fin 1) q) = Spec.result x0 x1 x2 x3 x4 x5 b q := by
  rw [val_main_v14_apply, val_main_v9_apply, val_main_v6_apply, val_main_v8_apply, val_main_v7_apply,
    val_main_v13_apply, val_main_v12_apply, val_main_cst_0_apply, val_main_v11_apply]
  simp only [val_main_v5_apply, val_main_v2_apply, val_main_v0_apply, val_main_v1_apply, val_main_cst_apply,
    val_main_v4_apply, val_main_v3_apply, val_main_v10_apply, lhs_base, rhs_base, scale_ix, bias_ix, lhs_out, rhs_out,
    lhs_mid, rhs_mid, Ideal.addf_def, Ideal.mulf_def, Ideal.subf_def, Ideal.ofBits_def]
  rfl

end Cert.ReferenceIdeal.RefValue

end
-- ==== Proof.lean ====
/-
  A quantised linear layer with a low-rank correction, computed by a tiled kernel and by a plain reference; the two
  agree over the extended reals.

  With activations `x [64, 1, 8192]`, integer weights `w [8192, 8192]`, per-row scales `s`, low-rank factors
  `a [64, 8192]` and `B [8192, 64]` and biases `β`, both programs compute, at batch row `b` and output channel `q`,

    `(∑ i, x (b, i) · ((w (q, i) − 128) · s q) + β q) + ¼ · ∑ r, (∑ i, x (b, i) · a (r, i)) · B (q, r)`.

  The reference forms each sum over the 8192 input channels in one contraction. The kernel works on a grid of 8
  tiles of 1024 output channels by 4 blocks of 2048 input channels: at a tile's first block it zeroes two
  accumulators, at every block it adds the block's part of the base product and of the low-rank projection, and at
  the last block it adds the bias and a quarter of the projection times `B`, and writes the tile. At the ideal
  values a change of float format is the identity and every operation is exact, so the kernel's sums are the
  reference's sums taken in four passes from zero, which on the extended reals is the same number (addition is
  commutative and associative there, and `0` is neutral): no use is made of the inputs being finite.

  How the proof is cut: `Spec` states the function and the four-pass law; `RefValue` reads the reference entry by
  entry; `Payloads` reads one grid step's arithmetic entry by entry; `Pieces` says what one run of the kernel body
  leaves in the accumulators and the output block; `Blocks` says which entries of the arguments each block holds;
  `Accum` follows the accumulators through a tile's four steps; `KernelValue` assembles the result array and the
  run. The word-level kernel takes part only through its frame; its idealisation is its own text read at the
  ideal values (no operation is rewritten), so that conjunct is trivially true.
-/
import proofs.«161912_j3006477107229_1_alg».proof.Defs
import proofs.«161912_j3006477107229_1_alg».proof.Proof.Gen.Kernel
import proofs.«161912_j3006477107229_1_alg».proof.Proof.Gen.Kernel.Frame
import proofs.«161912_j3006477107229_1_alg».proof.Proof.Gen.KernelIdeal
import proofs.«161912_j3006477107229_1_alg».proof.Proof.Gen.KernelIdeal.Frame
import proofs.«161912_j3006477107229_1_alg».proof.Proof.Gen.ReferenceIdeal
import proofs.«161912_j3006477107229_1_alg».proof.Proof.Gen.Pre_finite_inputs
import proofs.«161912_j3006477107229_1_alg».proof.Proof.Gen.ReferenceIdeal.Run
import proofs.«161912_j3006477107229_1_alg».proof.Proof.Gen.ReferenceIdeal.Read
import proofs.«161912_j3006477107229_1_alg».proof.Proof.KernelValue
import proofs.«161912_j3006477107229_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments, the kernel's result buffer and the reference's end equal: entry
    `(b, 0, q)` of each is the specified result at `(b, q)`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v14_eq, a0, a1, a2, a3, a4, a5]
  funext i
  obtain ⟨b, z, q, rfl⟩ : ∃ (b : Fin 64) (z : Fin 1) (q : Fin 8192), i = ix3 b z q :=
    ⟨i 0, i 1, i 2, eq_ix3 (n0 := 64) (n1 := 1) (n2 := 8192) i⟩
  obtain rfl : z = 0 := Subsingleton.elim _ _
  rw [Cert.ReferenceIdeal.RefValue.ref_apply]
  exact (Cert.KernelIdeal.KernelValue.result_apply m c b q).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
